-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x576x256 : Shape := ⟨3, ![16, 576, 256]⟩
abbrev S1x1024x256 : Shape := ⟨3, ![1, 1024, 256]⟩
abbrev S_ : Shape := ⟨0, ![]⟩

class Facts : Prop where
  bcast_S_S16x576x256 : S_.BroadcastsInDim S16x576x256 (![] : Fin 0 → Fin S16x576x256.rank)
  reducesTo_S16x576x256_S_d0_1_2 : S16x576x256.ReducesTo [0, 1, 2] S_
  h_S_ : 0 < S_.numel
  bcast_S_S1x1024x256 : S_.BroadcastsInDim S1x1024x256 (![] : Fin 0 → Fin S1x1024x256.rank)
  reducesTo_S1x1024x256_S_d0_1_2 : S1x1024x256.ReducesTo [0, 1, 2] S_

variable [Facts]

def fn {F : FTy → Type} [FloatOps F] (main_arg0 : FVec F S16x576x256 .f32) (main_arg1 : FVec F S1x1024x256 .f32) : IVec S_ 1 :=
  let main_v0 : FVec F S16x576x256 .f32 := Host.absf main_arg0
  let main_cst : FVec F S_ .f32 := constant S_ .f32 0x7F800000#32
  let main_v1 : FVec F S16x576x256 .f32 := broadcastInDim S16x576x256 ![] bcast_S_S16x576x256 main_cst
  let main_v2 : IVec S16x576x256 1 := cmpf .olt main_v0 main_v1
  let main_c : IVec S_ 1 := constantI S_ 1 1#1
  let main_v3 : IVec S_ 1 := (fun x v => Host.reduce IntOp.andi x v reducesTo_S16x576x256_S_d0_1_2 h_S_) main_v2 main_c
  let main_v4 : FVec F S1x1024x256 .f32 := Host.absf main_arg1
  let main_cst_0 : FVec F S_ .f32 := constant S_ .f32 0x7F800000#32
  let main_v5 : FVec F S1x1024x256 .f32 := broadcastInDim S1x1024x256 ![] bcast_S_S1x1024x256 main_cst_0
  let main_v6 : IVec S1x1024x256 1 := cmpf .olt main_v4 main_v5
  let main_c_1 : IVec S_ 1 := constantI S_ 1 1#1
  let main_v7 : IVec S_ 1 := (fun x v => Host.reduce IntOp.andi x v reducesTo_S1x1024x256_S_d0_1_2 h_S_) main_v6 main_c_1
  let main_v8 : IVec S_ 1 := andi main_v3 main_v7
  main_v8
-- ==== Kernel.lean ====
abbrev S16x576x256 : Shape := ⟨3, ![16, 576, 256]⟩
abbrev S1x1024x256 : Shape := ⟨3, ![1, 1024, 256]⟩
abbrev S9216x256 : Shape := ⟨2, ![9216, 256]⟩
abbrev S1024x256 : Shape := ⟨2, ![1024, 256]⟩
abbrev S9216x1024 : Shape := ⟨2, ![9216, 1024]⟩
abbrev S2304x256 : Shape := ⟨2, ![2304, 256]⟩
abbrev S2304x1024 : Shape := ⟨2, ![2304, 1024]⟩
abbrev S1x1024 : Shape := ⟨2, ![1, 1024]⟩
abbrev S1024 : Shape := ⟨1, ![1024]⟩
abbrev S1024x1 : Shape := ⟨2, ![1024, 1]⟩
abbrev S2304 : Shape := ⟨1, ![2304]⟩
abbrev S2304x1 : Shape := ⟨2, ![2304, 1]⟩
abbrev S16x576x1024 : Shape := ⟨3, ![16, 576, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16x576x256, .f32⟩
  | .hbm, ⟨1, _⟩ => ⟨S1x1024x256, .f32⟩
  | .hbm, ⟨2, _⟩ => ⟨S9216x256, .f32⟩
  | .hbm, ⟨3, _⟩ => ⟨S1024x256, .f32⟩
  | .hbm, ⟨4, _⟩ => ⟨S9216x1024, .f32⟩
  | .hbm, ⟨5, _⟩ => ⟨S16x576x1024, .f32⟩
  | .local _ .vmem, ⟨0, _⟩ => ⟨S2304x256, .f32⟩
  | .local _ .vmem, ⟨1, _⟩ => ⟨S2304x256, .f32⟩
  | .local _ .vmem, ⟨2, _⟩ => ⟨S1024x256, .f32⟩
  | .local _ .vmem, ⟨3, _⟩ => ⟨S2304x1024, .f32⟩
  | .local _ .vmem, ⟨4, _⟩ => ⟨S2304x1024, .f32⟩
  | .local _ .vmem, ⟨5, _⟩ => ⟨S1024x256, .bf16⟩
  | .local _ .vmem, ⟨6, _⟩ => ⟨S1x1024, .f32⟩
  | _, _ => ⟨S16x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x576x256_S9216x256 : S16x576x256.ShapeCasts S9216x256
  shapeCasts_S1x1024x256_S1024x256 : S1x1024x256.ShapeCasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  reduces_S1024x256_S1024 : S1024x256.Reduces [1] S1024
  shapeCasts_S1024_S1024x1 : S1024.ShapeCasts S1024x1
  shapeCasts_S1024x1_S1x1024 : S1024x1.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2304x256_S2304x256_0_0 : ∀ a, (![0, 0] : Fin 2 → Nat) a + S2304x256.size a ≤ S2304x256.size a
  h_S2304x256 : 0 < S2304x256.numel
  shapeCasts_S2304x256_S2304x256 : S2304x256.ShapeCasts S2304x256
  reduces_S2304x256_S2304 : S2304x256.Reduces [1] S2304
  shapeCasts_S2304_S2304x1 : S2304.ShapeCasts S2304x1
  broadcasts_S2304x1_S2304x1024 : S2304x1.Broadcasts S2304x1024
  broadcasts_S1x1024_S2304x1024 : S1x1024.Broadcasts S2304x1024
  inb_S2304x1024_S2304x1024_0_0 : ∀ a, (![0, 0] : Fin 2 → Nat) a + S2304x1024.size a ≤ S2304x1024.size a
  h_S2304x1024 : 0 < S2304x1024.numel
  shapeCasts_S9216x1024_S16x576x1024 : S9216x1024.ShapeCasts S16x576x1024
  dot_S2304x256_S1024x256_S2304x1024_1_1_0_0_n_n_wf : DotDims.WF S2304x256 S1024x256 S2304x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2304x256.size a ≤ S9216x256.size a
  hwx0_0 : ∀ i : grid0.Coords, EltTy.bits .f32 = 32 ∨ (Rect.block (s := S9216x256) S2304x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2304x1024.size a ≤ S9216x1024.size a
  hwx0_2 : ∀ i : grid0.Coords, EltTy.bits .f32 = 32 ∨ (Rect.block (s := S9216x1024) S2304x1024.size (cc0_transform_2 i) (hinb0_2 i)).WholeWords (EltTy.packing .f32)

variable [Facts₀]

def dot_S2304x256_S1024x256_S2304x1024_1_1_0_0_n_n : DotDims S2304x256 S1024x256 S2304x1024 where
  lhsContracting := [1]
  rhsContracting := [1]
  lhsNonContracting := [0]
  rhsNonContracting := [0]
  lhsBatch := []
  rhsBatch := []
  wf := dot_S2304x256_S1024x256_S2304x1024_1_1_0_0_n_n_wf

abbrev win0_0 : Pipeline.Window sig grid0 :=
  Pipeline.Window.ofSpec (Memref.whole main_v0) S2304x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2304x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x576x256 : Shape := ⟨3, ![16, 576, 256]⟩
abbrev S1x1024x256 : Shape := ⟨3, ![1, 1024, 256]⟩
abbrev S9216x256 : Shape := ⟨2, ![9216, 256]⟩
abbrev S1024x256 : Shape := ⟨2, ![1024, 256]⟩
abbrev S_ : Shape := ⟨0, ![]⟩
abbrev S9216 : Shape := ⟨1, ![9216]⟩
abbrev S9216x1 : Shape := ⟨2, ![9216, 1]⟩
abbrev S1024 : Shape := ⟨1, ![1024]⟩
abbrev S1x1024 : Shape := ⟨2, ![1, 1024]⟩
abbrev S256x1024 : Shape := ⟨2, ![256, 1024]⟩
abbrev S9216x1024 : Shape := ⟨2, ![9216, 1024]⟩
abbrev S16x576x1024 : Shape := ⟨3, ![16, 576, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x576x256, .f32⟩
  | .hbm, ⟨1, _⟩ => ⟨S1x1024x256, .f32⟩
  | .hbm, ⟨2, _⟩ => ⟨S9216x256, .f32⟩
  | .hbm, ⟨3, _⟩ => ⟨S1024x256, .f32⟩
  | .hbm, ⟨4, _⟩ => ⟨S9216x256, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S256x1024, .f32⟩
  | .hbm, ⟨13, _⟩ => ⟨S9216x1024, .f32⟩
  | .hbm, ⟨14, _⟩ => ⟨S9216x1024, .f32⟩
  | .hbm, ⟨15, _⟩ => ⟨S9216x1024, .f32⟩
  | .hbm, ⟨16, _⟩ => ⟨S9216x1024, .f32⟩
  | .hbm, ⟨17, _⟩ => ⟨S_, .f32⟩
  | .hbm, ⟨18, _⟩ => ⟨S9216x1024, .f32⟩
  | .hbm, ⟨19, _⟩ => ⟨S9216x1024, .f32⟩
  | .hbm, ⟨20, _⟩ => ⟨S9216x1024, .f32⟩
  | .hbm, ⟨21, _⟩ => ⟨S16x576x1024, .f32⟩
  | _, _ => ⟨S16x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  shapeCasts_S16x576x256_S9216x256 : S16x576x256.ShapeCasts S9216x256
  shapeCasts_S1x1024x256_S1024x256 : S1x1024x256.ShapeCasts S1024x256
  reducesTo_S9216x256_S9216_d1 : S9216x256.ReducesTo [1] S9216
  h_S_ : 0 < S_.numel
  bcast_S9216_S9216x1_0 : S9216.BroadcastsInDim S9216x1 (![0] : Fin 1 → Fin S9216x1.rank)
  reducesTo_S1024x256_S1024_d1 : S1024x256.ReducesTo [1] S1024
  bcast_S1024_S1x1024_1 : S1024.BroadcastsInDim S1x1024 (![1] : Fin 1 → Fin S1x1024.rank)
  transposes_S1024x256_S256x1024_1_0 : S1024x256.Transposes [1, 0] S256x1024
  bcast_S9216x1_S9216x1024_0_1 : S9216x1.BroadcastsInDim S9216x1024 (![0, 1] : Fin 2 → Fin S9216x1024.rank)
  bcast_S1x1024_S9216x1024_0_1 : S1x1024.BroadcastsInDim S9216x1024 (![0, 1] : Fin 2 → Fin S9216x1024.rank)
  bcast_S_S9216x1024 : S_.BroadcastsInDim S9216x1024 (![] : Fin 0 → Fin S9216x1024.rank)
  shapeCasts_S9216x1024_S16x576x1024 : S9216x1024.ShapeCasts S16x576x1024
  dot_S9216x256_S256x1024_S9216x1024_1_0_0_1_n_n_wf : DotDims.WF S9216x256 S256x1024 S9216x1024 [1] [0] [0] [1] [] []

variable [Facts₀]

def dot_S9216x256_S256x1024_S9216x1024_1_0_0_1_n_n : DotDims S9216x256 S256x1024 S9216x1024 where
  lhsContracting := [1]
  rhsContracting := [0]
  lhsNonContracting := [0]
  rhsNonContracting := [1]
  lhsBatch := []
  rhsBatch := []
  wf := dot_S9216x256_S256x1024_S9216x1024_1_0_0_1_n_n_wf

class Facts : Prop extends Facts₀ where

variable [Facts]
-- ==== Proof.Pieces.lean ====
/-
  What each control case of the kernel body leaves behind, as the body's pure terms of the blocks it loaded. At the
  first grid point the body writes the codebook copy and the codebook row norms into its two carried buffers and then
  reads them back for the output block; at the later points it reads what the first point left. In both cases the
  output block is the same pure term of the feature block and the two carried buffers.
-/
import proofs.«144702_g44719199486315_cont_8to1c4_369_22_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: the carried codebook copy is the cast of the codebook block. -/
theorem keptCode_first (c : Dev nD) (i : grid0.Coords) (a1 : Memref sig .tc .vmem S2304x256 .f32) (h1 : a1.IsWhole) (a2 : Memref sig .tc .vmem S1024x256 .f32) (h2 : a2.IsWhole) (a3 : Memref sig .tc .vmem S2304x1024 .f32) (h3 : a3.IsWhole) (a4 : Memref sig .tc .vmem S1024x256 .bf16) (h4 : a4.IsWhole) (a5 : Memref sig .tc .vmem S1x1024 .f32) (h5 : a5.IsWhole) (hc : cond0_0 i) (x0 : Vec F S2304x256 .f32) (x1 : Vec F S1024x256 .f32) :
    sout0_A_0 c i a1 h1 a2 h2 a3 h3 a4 h4 a5 h5 hc x0 x1 = k0_pay2 x1 := by
  unfold sout0_A_0
  rw [View.read_writes_eq_canon _ _ _ (scover0_A_0 c i a1 h1 a2 h2 a3 h3 a4 h4 a5 h5 hc x0 x1)]
  unfold kernelRun0_A
  dsimp only
  sl_unfold_words
  rw [View.canon_unit_zero hz]
  simp only [View.readAt_eq_ld, h2.read_unread, View.ld_unit_zero (S := S1024x256) hz]

/-- First point: the carried row norms are the row sums of squares of the codebook block. -/
theorem keptNorm_first (c : Dev nD) (i : grid0.Coords) (a1 : Memref sig .tc .vmem S2304x256 .f32) (h1 : a1.IsWhole) (a2 : Memref sig .tc .vmem S1024x256 .f32) (h2 : a2.IsWhole) (a3 : Memref sig .tc .vmem S2304x1024 .f32) (h3 : a3.IsWhole) (a4 : Memref sig .tc .vmem S1024x256 .bf16) (h4 : a4.IsWhole) (a5 : Memref sig .tc .vmem S1x1024 .f32) (h5 : a5.IsWhole) (hc : cond0_0 i) (x0 : Vec F S2304x256 .f32) (x1 : Vec F S1024x256 .f32) :
    sout0_A_1 c i a1 h1 a2 h2 a3 h3 a4 h4 a5 h5 hc x0 x1 = k0_pay3 x1 := by
  unfold sout0_A_1
  rw [View.read_writes_eq_canon _ _ _ (scover0_A_1 c i a1 h1 a2 h2 a3 h3 a4 h4 a5 h5 hc x0 x1)]
  unfold kernelRun0_A
  dsimp only
  sl_unfold_words
  rw [View.canon_unit_zero hz]
  simp only [View.readAt_eq_ld, h2.read_unread, View.ld_unit_zero (S := S1024x256) hz]

/-- First point: the output block, over the two buffers just written and read back. -/
theorem block_first (c : Dev nD) (i : grid0.Coords) (a1 : Memref sig .tc .vmem S2304x256 .f32) (h1 : a1.IsWhole) (a2 : Memref sig .tc .vmem S1024x256 .f32) (h2 : a2.IsWhole) (a3 : Memref sig .tc .vmem S2304x1024 .f32) (h3 : a3.IsWhole) (a4 : Memref sig .tc .vmem S1024x256 .bf16) (h4 : a4.IsWhole) (a5 : Memref sig .tc .vmem S1x1024 .f32) (h5 : a5.IsWhole) (hc : cond0_0 i) (x0 : Vec F S2304x256 .f32) (x1 : Vec F S1024x256 .f32) :
    out0_A_2 c i a1 h1 a2 h2 a3 h3 a4 h4 a5 h5 hc x0 x1 = k0_pay4 x0 (k0_pay2 x1) (k0_pay3 x1) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero hz, View.readCov_unit_zero (S := S1024x256) _ hz, View.readCov_unit_zero (S := S1x1024) _ hz]
  simp only [View.readAt_eq_ld, h1.read_unread, h2.read_unread, View.ld_unit_zero (S := S2304x256) hz,
    View.ld_unit_zero (S := S1024x256) hz]

/-- Later points: the output block, over the two buffers as the point before left them. -/
theorem block_later (c : Dev nD) (i : grid0.Coords) (a1 : Memref sig .tc .vmem S2304x256 .f32) (h1 : a1.IsWhole) (a2 : Memref sig .tc .vmem S1024x256 .f32) (h2 : a2.IsWhole) (a3 : Memref sig .tc .vmem S2304x1024 .f32) (h3 : a3.IsWhole) (a4 : Memref sig .tc .vmem S1024x256 .bf16) (h4 : a4.IsWhole) (a5 : Memref sig .tc .vmem S1x1024 .f32) (h5 : a5.IsWhole) (hc : ¬cond0_0 i) (x0 : Vec F S2304x256 .f32) (x1 : Vec F S1024x256 .f32)
    (xs0 : Vec F S1024x256 .bf16) (xs1 : Vec F S1x1024 .f32) :
    out0_B_2 c i a1 h1 a2 h2 a3 h3 a4 h4 a5 h5 hc x0 x1 xs0 xs1 = k0_pay4 x0 xs0 xs1 := by
  unfold out0_B_2
  rw [View.read_writes_eq_canon _ _ _ (cover0_B_2 c i a1 h1 a2 h2 a3 h3 a4 h4 a5 h5 hc x0 x1 xs0 xs1)]
  unfold kernelRun0_B
  dsimp only
  sl_unfold_words
  rw [View.canon_unit_zero hz]
  simp only [View.readAt_eq_ld, h1.read_unread, h4.read_unread, h5.read_unread, View.ld_unit_zero (S := S2304x256) hz,
    View.ld_unit_zero (S := S1024x256) hz, View.ld_unit_zero (S := S1x1024) hz]

end Cert.KernelIdeal.Pieces

end
-- ==== Proof.Carry.lean ====
/-
  What the output block and the two carried buffers hold after each grid point. The codebook window has a constant index
  map, so the first point's codebook block is the whole codebook; the first point stores its cast and its row norms, and
  no later point stores into either buffer again. By induction on the point: after point `n` the two carried buffers
  still hold the first point's values, and the output block is the body's term of feature block `n` and those values.
-/
import proofs.«144702_g44719199486315_cont_8to1c4_369_22_alg».proof.Proof.Pieces

set_option maxRecDepth 16384

noncomputable section

open Idealize.ShloMosaic Idealize.ShloMosaic.TcCoe Idealize.SL.Sem
open Idealize.ShloMosaic.Pipeline (Dat)

namespace Cert.KernelIdeal.Carry

open Cert.KernelIdeal Cert.KernelIdeal.Gen Cert.KernelIdeal.Pieces

variable {F : FTy → Type} [FloatOps F]
variable (m : (ℓ : Loc nD τ sig) → Buf (Elt F) ℓ)

theorem first_lt : 0 < cfg0.N := by rw [show cfg0.N = 4 from N_0]; decide

/-- The codebook block the first grid point loads. -/
def codeBlk (c : Dev nD) : Vec F S1024x256 .f32 := iblk m c 1 ⟨0, first_lt⟩

/-- The contents after point `n`: the output block, then the two carried buffers. -/
def held (c : Dev nD) (n : ℕ) (hn : n < cfg0.N) : Vec F S2304x1024 .f32 × Vec F S1024x256 .bf16 × Vec F S1x1024 .f32 :=
  (k0_pay4 (iblk m c 0 ⟨n, hn⟩) (k0_pay2 (codeBlk m c)) (k0_pay3 (codeBlk m c)), k0_pay2 (codeBlk m c), k0_pay3 (codeBlk m c))

/-- After every point the buffers hold `held`: the first point by its three stores, a later point by its one store over
    what the point before left. -/
theorem outsAt_eq (c : Dev nD) : ∀ (n : ℕ) (h : n < cfg0.N), outsAt0 m c n h = held m c n h
  | 0, h => by
    refine (outsAt0_A m c ⟨0, h⟩ rfl).trans ?_
    unfold held codeBlk
    exact congrArg₂ Prod.mk (block_first ..) (congrArg₂ Prod.mk (keptCode_first ..) (keptNorm_first ..))
  | n + 1, h => by
    have hN : cfg0.N = 4 := N_0
    have hB : ¬(⟨n + 1, h⟩ : Fin cfg0.N).val % 4 = 0 := by dsimp only; omega
    rw [outsAt0_B m c ⟨n + 1, h⟩ hB, block_later]
    unfold sout0_B_0 sout0_B_1
    show (k0_pay4 _ (outsAt0 m c n _).2.1 (outsAt0 m c n _).2.2, (outsAt0 m c n _).2.1, (outsAt0 m c n _).2.2) = _
    rw [outsAt_eq c n]
    rfl

end Cert.KernelIdeal.Carry

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.SqDist.lean ====
/-
  The squared Euclidean distance between a feature row `a` and a codebook row `b` of length 256, on the extended reals,
  in the expanded form both programs compute: `‖a‖² + ‖b‖² − 2·⟨a, b⟩`. One program takes the cross term as the inner
  product of `−2·a` with `b` and adds the two squared norms to it one after the other; the other adds the two squared
  norms first and subtracts twice the inner product. The two arrangements agree whenever every entry of both rows is a
  real number: then all sums are real and the factor `−2` moves across the finite sum by distributivity. (On the
  extended reals distributivity fails at the infinities, which is why finiteness of the entries is assumed.)
-/
import Idealize.ShloMosaic.PureOps.Ideal
import Idealize.ShloMosaic.PureOps.Ideal.Laws
import Idealize.ShloMosaic.Lib.ValueIdx

noncomputable section

open scoped BigOperators

namespace Cert.SqDist

open Idealize.ShloMosaic Idealize.ShloMosaic.ValueIdx

/-- The coercion of reals into the extended reals commutes with finite sums. -/
theorem coe_sum {ι : Type*} (s : Finset ι) (g : ι → ℝ) :
    ((∑ d ∈ s, g d : ℝ) : EReal) = ∑ d ∈ s, (g d : EReal) := by
  classical
  induction s using Finset.induction_on with
  | empty => simp
  | insert a s ha ih => rw [Finset.sum_insert ha, Finset.sum_insert ha, EReal.coe_add, ih]

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `-2.0` denotes the real `-2`. -/
theorem ofBits_negTwo : Ideal.ofBits .f32 0xC0000000#32 = ((-2 : ℝ) : EReal) := by
  simp [Ideal.ofBits, Ideal.ieee, -EReal.coe_mul]; norm_num

/-- The squared distance of two rows in expanded form: the two squared norms, less twice the inner product. -/
def sqDist {ι : Type*} [Fintype ι] (a b : ι → EReal) : EReal :=
  (∑ d, a d * a d + ∑ d, b d * b d) - ((2 : ℝ) : EReal) * ∑ d, a d * b d

/-- The same over real rows, as one real number. -/
theorem sqDist_coe {ι : Type*} [Fintype ι] (a b : ι → ℝ) :
    sqDist (fun d => (a d : EReal)) (fun d => (b d : EReal))
      = (((∑ d, a d * a d + ∑ d, b d * b d) - 2 * ∑ d, a d * b d : ℝ) : EReal) := by
  unfold sqDist
  simp only [← EReal.coe_mul, ← coe_sum, ← EReal.coe_add, ← EReal.coe_sub]

/-- The other arrangement — the inner product of `−2·a` with `b`, then `‖a‖²`, then `‖b‖²` added — is the squared
    distance, for rows of real numbers. -/
theorem cross_first {ι : Type*} [Fintype ι] (a b : ι → EReal)
    (ha : ∀ d, ∃ x : ℝ, a d = (x : EReal)) (hb : ∀ d, ∃ y : ℝ, b d = (y : EReal)) :
    (∑ d, (((-2 : ℝ) : EReal) * a d) * b d + ∑ d, a d * a d) + ∑ d, b d * b d = sqDist a b := by
  choose x hx using ha
  choose y hy using hb
  obtain rfl : a = fun d => (x d : EReal) := funext hx
  obtain rfl : b = fun d => (y d : EReal) := funext hy
  rw [sqDist_coe]
  simp only [← EReal.coe_mul, ← coe_sum, ← EReal.coe_add]
  refine congrArg _ ?_
  have h : ∑ d, -2 * x d * y d = -2 * ∑ d, x d * y d := by
    rw [Finset.mul_sum]; exact Finset.sum_congr rfl fun d _ => by ring
  rw [h]; ring

/-! ## The whole result, index by index -/

/-- The features as a matrix of 9216 rows, the codebook as one of 1024 rows, and the distances between every pair. -/
abbrev Feat : Shape := ⟨2, ![9216, 256]⟩
abbrev Code : Shape := ⟨2, ![1024, 256]⟩
abbrev Dist : Shape := ⟨2, ![9216, 1024]⟩

/-- Row `r` of the features and row `k` of the codebook. -/
def featRow (f : Feat.Idx → EReal) (r : Fin 9216) : Fin 256 → EReal := fun d => f (ix2 r d)
def codeRow (cc : Code.Idx → EReal) (k : Fin 1024) : Fin 256 → EReal := fun d => cc (ix2 k d)

/-- Entry `(r, k)` of the result is the squared distance between feature row `r` and codebook row `k`. -/
def dist (f : Feat.Idx → EReal) (cc : Code.Idx → EReal) : Dist.Idx → EReal :=
  fun i => sqDist (featRow f (i 0)) (codeRow cc (i 1))

theorem dist_apply (f : Feat.Idx → EReal) (cc : Code.Idx → EReal) (r : Fin 9216) (k : Fin 1024) :
    dist f cc (ix2 r k) = sqDist (featRow f r) (codeRow cc k) := rfl

/-- The other arrangement, entry by entry: the inner product of `−2·f_r` with `c_k`, then `‖f_r‖²`, then `‖c_k‖²`. -/
def distCrossFirst (f : Feat.Idx → EReal) (cc : Code.Idx → EReal) : Dist.Idx → EReal :=
  fun i => (∑ d, (((-2 : ℝ) : EReal) * featRow f (i 0) d) * codeRow cc (i 1) d
      + ∑ d, featRow f (i 0) d * featRow f (i 0) d) + ∑ d, codeRow cc (i 1) d * codeRow cc (i 1) d

theorem distCrossFirst_apply (f : Feat.Idx → EReal) (cc : Code.Idx → EReal) (r : Fin 9216) (k : Fin 1024) :
    distCrossFirst f cc (ix2 r k)
      = (∑ d : Fin 256, (((-2 : ℝ) : EReal) * f (ix2 r d)) * cc (ix2 k d) + ∑ d : Fin 256, f (ix2 r d) * f (ix2 r d))
          + ∑ d : Fin 256, cc (ix2 k d) * cc (ix2 k d) := rfl

/-- When every entry of both matrices is a real number the two arrangements are one matrix. -/
theorem distCrossFirst_eq (f : Feat.Idx → EReal) (cc : Code.Idx → EReal)
    (hf : ∀ j, ∃ x : ℝ, f j = (x : EReal)) (hc : ∀ j, ∃ y : ℝ, cc j = (y : EReal)) :
    distCrossFirst f cc = dist f cc :=
  funext fun i => cross_first (featRow f (i 0)) (codeRow cc (i 1)) (fun _ => hf _) (fun _ => hc _)

end Cert.SqDist

end
-- ==== Proof.Payload.lean ====
/-
  What the kernel body stores, read entry by entry on the extended reals (where a change of float format is the
  identity). At the first grid point it keeps the codebook itself and, for each codebook row, the sum of that row's
  squares. At every point it stores, for row `p` of its feature block and codebook row `q`: the inner product of
  `−2·f_p` with the kept codebook row `q`, plus the sum of squares of `f_p`, plus the kept number for row `q`.
-/
import proofs.«144702_g44719199486315_cont_8to1c4_369_22_alg».proof.Proof.Gen.KernelIdeal.Skeleton
import proofs.«144702_g44719199486315_cont_8to1c4_369_22_alg».proof.Proof.LibKeepdims
import proofs.«144702_g44719199486315_cont_8to1c4_369_22_alg».proof.Proof.SqDist

noncomputable section

open scoped BigOperators

namespace Cert.KernelIdeal.Payload

open Cert.KernelIdeal Cert.KernelIdeal.Gen
open Idealize.ShloMosaic Idealize.ShloMosaic.ValueIdx Cert.SqDist Cert.LibKeepdims

/-- The kept codebook is the codebook block, entry by entry. -/
theorem keptCode_apply (v19 : Vec Ideal S1024x256 .f32) (j : S1024x256.Idx) :
    k0_pay2 (F := Ideal) v19 j = v19 j := by
  unfold k0_pay2 k0_pay1
  dsimp only
  have e : shapeCast S1024x256 v19 shapeCasts_S1024x256_S1024x256 = v19 := shapeCast_self _ _
  refine (congrFun (shapeCast_self _ _) j).trans ?_
  exact congrFun e j

/-- The kept number for codebook row `q` is the sum of that row's squares. -/
theorem keptNorm_apply (v19 : Vec Ideal S1024x256 .f32) (u : Fin 1) (q : Fin 1024) :
    k0_pay3 (F := Ideal) v19 (ix2 u q) = ∑ d : Fin 256, v19 (ix2 q d) * v19 (ix2 q d) := by
  unfold k0_pay3 k0_pay1
  dsimp only
  have e : shapeCast S1024x256 v19 shapeCasts_S1024x256_S1024x256 = v19 := shapeCast_self _ _
  refine (congrFun (shapeCast_self _ _) (ix2 u q)).trans ?_
  refine (shapeCast_a1_1a_apply _ _ u q).trans ?_
  refine (shapeCast_a_a1_apply _ _ q (0 : Fin 1)).trans ?_
  refine (multiReduction_add_rows _ _ _ _ _ q).trans ?_
  refine Finset.sum_congr rfl fun d _ => ?_
  show shapeCast S1024x256 v19 shapeCasts_S1024x256_S1024x256 (ix2 q d) * shapeCast S1024x256 v19 shapeCasts_S1024x256_S1024x256 (ix2 q d) = _
  rw [e]

/-- The left operand's row coordinate is the result's row, whatever the position along the shared axis. -/
theorem lhs_row (i : S2304x1024.Idx) (k : dot_S2304x256_S1024x256_S2304x1024_1_1_0_0_n_n.contr.Idx) :
    (dot_S2304x256_S1024x256_S2304x1024_1_1_0_0_n_n.lhsIdx i k 0).val = (i 0).val := by
  unfold DotDims.lhsIdx
  rw [dif_neg (show ¬(0 : Fin S2304x256.rank) ∈ dot_S2304x256_S1024x256_S2304x1024_1_1_0_0_n_n.lhsBatch by decide), dif_pos (show (0 : Fin S2304x256.rank) ∈ dot_S2304x256_S1024x256_S2304x1024_1_1_0_0_n_n.lhsNonContracting by decide)]
  rfl
/-- The right operand's row coordinate is the result's column. -/
theorem rhs_row (i : S2304x1024.Idx) (k : dot_S2304x256_S1024x256_S2304x1024_1_1_0_0_n_n.contr.Idx) :
    (dot_S2304x256_S1024x256_S2304x1024_1_1_0_0_n_n.rhsIdx i k 0).val = (i 1).val := by
  unfold DotDims.rhsIdx
  rw [dif_neg (show ¬(0 : Fin S1024x256.rank) ∈ dot_S2304x256_S1024x256_S2304x1024_1_1_0_0_n_n.rhsBatch by decide), dif_pos (show (0 : Fin S1024x256.rank) ∈ dot_S2304x256_S1024x256_S2304x1024_1_1_0_0_n_n.rhsNonContracting by decide)]
  rfl
/-- Both operands' second coordinate is the position along the shared axis. -/
theorem lhs_col (i : S2304x1024.Idx) (k : dot_S2304x256_S1024x256_S2304x1024_1_1_0_0_n_n.contr.Idx) :
    (dot_S2304x256_S1024x256_S2304x1024_1_1_0_0_n_n.lhsIdx i k 1).val = (k ⟨0, by decide⟩).val :=
  dot_S2304x256_S1024x256_S2304x1024_1_1_0_0_n_n.lhsIdx_val_of_single rfl i k
theorem rhs_col (i : S2304x1024.Idx) (k : dot_S2304x256_S1024x256_S2304x1024_1_1_0_0_n_n.contr.Idx) :
    (dot_S2304x256_S1024x256_S2304x1024_1_1_0_0_n_n.rhsIdx i k 1).val = (k ⟨0, by decide⟩).val :=
  dot_S2304x256_S1024x256_S2304x1024_1_1_0_0_n_n.rhsIdx_val_of_single rfl i k

/-- The matrix product of the body, into the zero accumulator: at `(p, q)` the sum over the shared axis of the products of
    row `p` of the left operand and row `q` of the right one (both operands are contracted along their second axis). -/
theorem cross_apply (lhs : FVec Ideal S2304x256 .bf16) (rhs : FVec Ideal S1024x256 .bf16) (p : Fin 2304) (q : Fin 1024) :
    matmul dot_S2304x256_S1024x256_S2304x1024_1_1_0_0_n_n none lhs rhs (constant (F := Ideal) S2304x1024 .f32 0x00000000#32) (ix2 p q)
      = ∑ d : Fin 256, lhs (ix2 p d) * rhs (ix2 q d) := by
  simp only [matmul]
  rw [Ideal.matmul_constant_zero_apply, ← Equiv.sum_comp (ValueIdx.contrEquiv1 dot_S2304x256_S1024x256_S2304x1024_1_1_0_0_n_n 256 rfl rfl).symm]
  refine Finset.sum_congr rfl fun k _ => ?_
  have hk := ValueIdx.contrEquiv1_symm_val dot_S2304x256_S1024x256_S2304x1024_1_1_0_0_n_n 256 rfl rfl k
  have el : dot_S2304x256_S1024x256_S2304x1024_1_1_0_0_n_n.lhsIdx (ix2 p q) ((ValueIdx.contrEquiv1 dot_S2304x256_S1024x256_S2304x1024_1_1_0_0_n_n 256 rfl rfl).symm k) = ix2 p k := funext fun a => Fin.ext (by
    match a with
    | ⟨0, _⟩ => exact lhs_row _ _
    | ⟨1, _⟩ => exact (lhs_col _ _).trans hk)
  have er : dot_S2304x256_S1024x256_S2304x1024_1_1_0_0_n_n.rhsIdx (ix2 p q) ((ValueIdx.contrEquiv1 dot_S2304x256_S1024x256_S2304x1024_1_1_0_0_n_n 256 rfl rfl).symm k) = ix2 q k := funext fun a => Fin.ext (by
    match a with
    | ⟨0, _⟩ => exact rhs_row _ _
    | ⟨1, _⟩ => exact (rhs_col _ _).trans hk)
  rw [el, er]

/-- The stored block at `(p, q)`: the inner product of `−2·f_p` with the kept codebook row `q`, then the sum of squares
    of `f_p`, then the kept number for row `q`. -/
theorem block_apply (v3 : Vec Ideal S2304x256 .f32) (v11 : Vec Ideal S1024x256 .bf16) (v15 : Vec Ideal S1x1024 .f32)
    (p : Fin 2304) (q : Fin 1024) :
    k0_pay4 (F := Ideal) v3 v11 v15 (ix2 p q)
      = (∑ d : Fin 256, (((-2 : ℝ) : EReal) * v3 (ix2 p d)) * v11 (ix2 q d) + ∑ d : Fin 256, v3 (ix2 p d) * v3 (ix2 p d))
          + v15 (ix2 (0 : Fin 1) q) := by
  unfold k0_pay4
  dsimp only
  have e : shapeCast S2304x256 v3 shapeCasts_S2304x256_S2304x256 = v3 := shapeCast_self _ _
  rw [e]
  rw [addf_apply, addf_apply]
  refine congrArg₂ (· + ·) (congrArg₂ (· + ·) ?_ ?_) ?_
  · refine (cross_apply _ _ p q).trans ?_
    refine Finset.sum_congr rfl fun d _ => ?_
    show (Ideal.ofBits .f32 0xC0000000#32 * v3 (ix2 p d)) * v11 (ix2 q d) = _
    rw [ofBits_negTwo]
  · refine (broadcastTo_a1_ab_apply _ _ p q).trans ?_
    refine (shapeCast_a_a1_apply _ _ p (0 : Fin 1)).trans ?_
    exact multiReduction_add_rows _ _ _ _ _ p
  · exact ValueIdx.broadcastTo_1b_ab_apply _ _ p q

end Cert.KernelIdeal.Payload

end
-- ==== Proof.Blocks.lean ====
/-
  From blocks to the whole array, on the extended reals. Grid point `t` reads rows `2304·t … 2304·t + 2303` of the
  features and the whole codebook, and writes back rows `2304·t … 2304·t + 2303` of the result. Entry `(p, q)` of the
  block it writes is the inner product of `−2·f_r` with `c_q`, plus `‖f_r‖²`, plus `‖c_q‖²`, for `r = 2304·t + p`: the
  carried buffers hold the codebook and its row norms at every point. The four blocks tile the 9216 rows, so the result
  array ends holding that function of the features and the codebook as the region found them.
-/
import proofs.«144702_g44719199486315_cont_8to1c4_369_22_alg».proof.Proof.Carry
import proofs.«144702_g44719199486315_cont_8to1c4_369_22_alg».proof.Proof.Payload

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Carry Cert.KernelIdeal.Payload Cert.SqDist

variable (m : (ℓ : Loc nD τ sig) → Buf (Elt Ideal) ℓ)

/-- The three index maps over the grid: features and result move one block of rows per point, the codebook stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `2304·t …` of the features. -/
theorem featBlk_apply (c : Dev nD) (t : Fin cfg0.N) (p : Fin 2304) (d : Fin 256) (r : Fin 9216)
    (hr : r.val = t.val * 2304 + p.val) :
    (iblk m c 0 t : Vec Ideal S2304x256 .f32) (ix2 p d) = (V m c main_v0 : S9216x256.Idx → Elt Ideal .f32) (ix2 r d) := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 2304 + 1 * p.val = r.val; rw [e0, hr]; omega
  | ⟨1, _⟩ => show win0_0.index t 1 * 256 + 1 * d.val = d.val; rw [e1]; omega

/-- The codebook block the first point loads is the whole codebook. -/
theorem codeBlk_apply (c : Dev nD) (q : Fin 1024) (d : Fin 256) :
    (codeBlk m c : Vec Ideal S1024x256 .f32) (ix2 q d) = (V m c main_v1 : S1024x256.Idx → Elt Ideal .f32) (ix2 q d) := by
  obtain ⟨-, -, e2, e3, -⟩ := idx_facts (⟨0, first_lt⟩ : Fin cfg0.N)
  unfold codeBlk iblk
  rw [View.read_apply]
  show V m c main_v1 _ = V m c main_v1 _
  congr 1
  funext a
  apply Fin.ext
  match a with
  | ⟨0, _⟩ => show win0_1.index ⟨0, first_lt⟩ 0 * 1024 + 1 * q.val = q.val; rw [e2]; omega
  | ⟨1, _⟩ => show win0_1.index ⟨0, first_lt⟩ 1 * 256 + 1 * d.val = d.val; rw [e3]; omega

/-- What point `t` writes back is block `t` of the distance matrix, in the kernel's arrangement, of the features and the
    codebook as the region finds them. -/
theorem flushed_eq (c : Dev nD) (t : Fin cfg0.N) :
    (dats m 0 c).flushed 2 t
      = ((cfg0.win 2).blk t).view.read (Elt Ideal) (distCrossFirst (V m c main_v0) (V m c main_v1)) := by
  show (cfg0.win 2).cut (grid0.coords t) ((dats m 0 c).after 2 t) = _
  rw [after0_2, outsAt_eq]
  obtain ⟨-, -, -, -, e4, e5⟩ := idx_facts t
  have hN : t.val < 4 := lt_of_lt_of_eq t.isLt (show cfg0.N = 4 from N_0)
  show ((held m c t.val t.isLt).1 : S2304x1024.Idx → Elt Ideal .f32)
    = fun y : S2304x1024.Idx => distCrossFirst (V m c main_v0) (V m c main_v1) (((cfg0.win 2).blk t).view.emb y)
  funext y
  obtain ⟨p, q, rfl⟩ : ∃ (p : Fin 2304) (q : Fin 1024), y = ix2 p q := ⟨y 0, y 1, eq_ix2 y⟩
  have hr : t.val * 2304 + p.val < 9216 := by have := p.isLt; omega
  have hemb : ((cfg0.win 2).blk t).view.emb (ix2 p q) = ix2 (⟨t.val * 2304 + p.val, hr⟩ : Fin 9216) q := by
    funext a
    apply Fin.ext
    match a with
    | ⟨0, _⟩ => show win0_2.index t 0 * 2304 + 1 * p.val = t.val * 2304 + p.val; rw [e4]; omega
    | ⟨1, _⟩ => show win0_2.index t 1 * 1024 + 1 * q.val = q.val; rw [e5]; omega
  rw [hemb, distCrossFirst_apply]
  unfold held
  refine (block_apply (iblk m c 0 t) (k0_pay2 (codeBlk m c)) (k0_pay3 (codeBlk m c)) p q).trans ?_
  refine congrArg₂ (· + ·) (congrArg₂ (· + ·) (Finset.sum_congr rfl fun d _ => ?_) (Finset.sum_congr rfl fun d _ => ?_)) ?_
  · rw [featBlk_apply m c t p d ⟨_, hr⟩ rfl, keptCode_apply, codeBlk_apply]
  · rw [featBlk_apply m c t p d ⟨_, hr⟩ rfl]
  · rw [keptNorm_apply]
    exact Finset.sum_congr rfl fun d _ => by rw [codeBlk_apply]

/-- An index of the result is in point `t`'s block iff each coordinate is in the block's range on its axis. -/
theorem mem_blk (t : Fin cfg0.N) (i : S9216x1024.Idx) :
    i ∈ ((cfg0.win 2).blk t).view.set ↔ ∀ a : Fin 2, win0_2.index t a * S2304x1024.size a ≤ (i a).val
      ∧ (i a).val < win0_2.index t a * S2304x1024.size a + S2304x1024.size a := by
  show i ∈ ((View.whole main_v2).slice (win0_2.rect t)).set ↔ _
  rw [View.set_slice_whole, Rect.mem_set_unit]
  exact Iff.rfl

/-- Row `r` of the result lies in the block of point `r / 2304`: the four blocks tile the array. -/
theorem cover (i : S9216x1024.Idx) :
    ∃ t : Fin cfg0.N, (cfg0.win 2).flush t = true ∧ i ∈ ((cfg0.win 2).blk t).view.set := by
  have hN : cfg0.N = 4 := N_0
  have hi0 : (i 0).val < 9216 := (i 0).isLt
  have hi1 : (i 1).val < 1024 := (i 1).isLt
  have ht : (i 0).val / 2304 < cfg0.N := by rw [hN]; omega
  refine ⟨⟨(i 0).val / 2304, ht⟩, flush0_2 _, ?_⟩
  obtain ⟨-, -, -, -, e4, e5⟩ := idx_facts ⟨(i 0).val / 2304, ht⟩
  rw [mem_blk]
  intro a
  match a with
  | ⟨0, _⟩ =>
    show win0_2.index ⟨(i 0).val / 2304, ht⟩ 0 * 2304 ≤ (i 0).val ∧ (i 0).val < win0_2.index ⟨(i 0).val / 2304, ht⟩ 0 * 2304 + 2304
    rw [e4]; show (i 0).val / 2304 * 2304 ≤ (i 0).val ∧ (i 0).val < (i 0).val / 2304 * 2304 + 2304; omega
  | ⟨1, _⟩ =>
    show win0_2.index ⟨(i 0).val / 2304, ht⟩ 1 * 1024 ≤ (i 1).val ∧ (i 1).val < win0_2.index ⟨(i 0).val / 2304, ht⟩ 1 * 1024 + 1024
    rw [e5]; omega

/-- So the result array ends holding the distance matrix, in the kernel's arrangement, of the two arrays the region found. -/
theorem final (c : Dev nD) :
    (dats m 0 c).arrAt 2 cfg0.N = distCrossFirst (V m c main_v0) (V m c main_v1) :=
  (dats m 0 c).arrAt_eq_of_cover 2 (distCrossFirst (V m c main_v0) (V m c main_v1)) (fun t _ => flushed_eq m c t) cover

end Cert.KernelIdeal.Blocks

end
-- ==== Proof.KernelRun.lean ====
/-
  The idealized kernel program's run, read back. Before the region the two arguments are reshaped to 9216 × 256 and
  1024 × 256; the region leaves the 9216 × 1024 distance matrix of those two arrays (in the kernel's arrangement) in its
  result array; after the region that array is reshaped to 16 × 576 × 1024. So every weakly fair execution terminates
  with the result at that reshape of the distance matrix of the reshaped arguments, and the arguments unchanged.
-/
import proofs.«144702_g44719199486315_cont_8to1c4_369_22_alg».proof.Proof.Blocks
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KernelRun

open Cert.KernelIdeal Cert.KernelIdeal.Gen Cert.KernelIdeal.Blocks Cert.SqDist

variable (m : (ℓ : Loc nD τ sig) → Buf (Elt Ideal) ℓ) (ρ : Dev nD → PrngReg)

/-- The region finds the features reshaped to 9216 rows. -/
theorem feat_eq (c : Dev nD) :
    (V m c main_v0 : S9216x256.Idx → Elt Ideal .f32)
      = shapeCast S9216x256 (m ((c : Thread nD τ).loc main_arg0)) shapeCasts_S16x576x256_S9216x256 := by
  show StableHlo.after hostOps0 (fun b => m (c, b)) (Proc.devRef .tc main_v0) = _
  after_results
  rfl

/-- The region finds the codebook reshaped to 1024 rows. -/
theorem code_eq (c : Dev nD) :
    (V m c main_v1 : S1024x256.Idx → Elt Ideal .f32)
      = shapeCast S1024x256 (m ((c : Thread nD τ).loc main_arg1)) shapeCasts_S1x1024x256_S1024x256 := by
  show StableHlo.after hostOps0 (fun b => m (c, b)) (Proc.devRef .tc main_v1) = _
  after_results
  rfl

/-- The distance matrix of the reshaped arguments, in the kernel's arrangement. -/
def matrix (c : Dev nD) : S9216x1024.Idx → Elt Ideal .f32 :=
  distCrossFirst (shapeCast S9216x256 (m ((c : Thread nD τ).loc main_arg0)) shapeCasts_S16x576x256_S9216x256)
    (shapeCast S1024x256 (m ((c : Thread nD τ).loc main_arg1)) shapeCasts_S1x1024x256_S1024x256)

/-- The program's result: that matrix reshaped to 16 × 576 × 1024. -/
def result (c : Dev nD) : Buf (Elt Ideal) ((c : Thread nD τ).loc main_v3) :=
  shapeCast S16x576x1024 (matrix m c) shapeCasts_S9216x1024_S16x576x1024

/-- What the region leaves in its result array, as the lines after the region find it. -/
theorem region_eq (c : Dev nD) :
    Pipeline.withArrays (cfgs 0).spec c (V0 m c) (fun w => (dats m 0 c).arrAt w (cfgs 0).N) (Proc.devRef .tc main_v2)
      = matrix m c := by
  refine ((Pipeline.withArrays_arr spec0 launch0.win.arr_inj c _ _ 2).trans (final m c)).trans ?_
  unfold matrix
  rw [feat_eq, code_eq]

/-- The one line after the region reshapes that array. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  unfold result
  exact congrArg (fun W => shapeCast S16x576x1024 W shapeCasts_S9216x1024_S16x576x1024) (region_eq m c)

/-- The run, read: the result at the reshaped distance matrix, the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.RefValue.lean ====
/-
  The reference program computes, before its last reshape, the matrix of squared distances in expanded form: entry
  `(r, k)` is `(‖f_r‖² + ‖c_k‖²) − 2·⟨f_r, c_k⟩`, where `f` is the feature array viewed as 9216 rows and `c` the codebook
  viewed as 1024 rows. Each stage is read at an index: the two row sums start from the zero word, which denotes `0`; the
  matrix product with the transposed codebook is the sum over the shared axis of `f_r[d]·c_k[d]`; the scalar `2.0`
  denotes the real `2`.
-/
import proofs.«144702_g44719199486315_cont_8to1c4_369_22_alg».proof.Proof.Gen.ReferenceIdeal.Read
import proofs.«144702_g44719199486315_cont_8to1c4_369_22_alg».proof.Proof.SqDist

noncomputable section

namespace Cert.ReferenceIdeal.RefValue

open Cert.ReferenceIdeal Cert.ReferenceIdeal.Gen Cert.ReferenceIdeal.Read
open Idealize.ShloMosaic Idealize.ShloMosaic.ValueIdx Cert.SqDist

/-- The stage before the last reshape, at entry `(r, k)`: the squared distance of feature row `r` and codebook row `k`. -/
theorem stage15_apply (x : (⟨S16x576x256, .f32⟩ : BufTy).Contents (Elt Ideal)) (ck : (⟨S1x1024x256, .f32⟩ : BufTy).Contents (Elt Ideal))
    (r : Fin 9216) (k : Fin 1024) :
    val_main_v15 (F := Ideal) x ck (ix2 r k)
      = sqDist (featRow (val_main_v0 (F := Ideal) x) r) (codeRow (val_main_v1 (F := Ideal) ck) k) := by
  have e1 : ∀ d : Fin 256, idx_main_v3 (idx_main_v4 (idx_main_v10 (ix2 r k))) d = ix2 r d := fun d =>
    funext fun a => Fin.ext (by match a with | ⟨0, _⟩ => rfl | ⟨1, _⟩ => rfl)
  have e2 : ∀ d : Fin 256, idx_main_v6 (idx_main_v7 (idx_main_v11 (ix2 r k))) d = ix2 k d := fun d =>
    funext fun a => Fin.ext (by match a with | ⟨0, _⟩ => rfl | ⟨1, _⟩ => rfl)
  have e3 : ∀ d : Fin 256, lidx_main_v9 (ix2 r k) d = ix2 r d := fun d =>
    funext fun a => Fin.ext (by match a with | ⟨0, _⟩ => rfl | ⟨1, _⟩ => rfl)
  have e4 : ∀ d : Fin 256, idx_main_v8 (ridx_main_v9 (ix2 r k) d) = ix2 k d := fun d =>
    funext fun a => Fin.ext (by match a with | ⟨0, _⟩ => rfl | ⟨1, _⟩ => rfl)
  simp only [val_main_v15_apply, val_main_v12_apply, val_main_v10_apply, val_main_v4_apply, val_main_v3_apply,
    val_main_v2_apply, val_main_v11_apply, val_main_v7_apply, val_main_v6_apply, val_main_v5_apply,
    val_main_v14_apply, val_main_v13_apply, val_main_v9_apply, val_main_v8_apply, val_main_cst_apply,
    val_main_cst_0_apply, val_main_cst_1_apply, e1, e2, e3, e4, Ideal.ofBits_def, Ideal.addf_def, Ideal.subf_def,
    Ideal.mulf_def, Ideal.ofBits_zero_f32, zero_add, ofBits_two]
  rfl

/-- So that stage is the distance matrix of the two reshaped arguments. -/
theorem stage15_eq (x : (⟨S16x576x256, .f32⟩ : BufTy).Contents (Elt Ideal)) (ck : (⟨S1x1024x256, .f32⟩ : BufTy).Contents (Elt Ideal)) :
    val_main_v15 (F := Ideal) x ck = dist (val_main_v0 (F := Ideal) x) (val_main_v1 (F := Ideal) ck) := by
  funext i
  obtain ⟨r, k, rfl⟩ : ∃ (r : Fin 9216) (k : Fin 1024), i = ix2 r k := ⟨i 0, i 1, eq_ix2 i⟩
  rw [dist_apply]
  exact stage15_apply x ck r k

end Cert.ReferenceIdeal.RefValue

end
-- ==== Proof.Finite.lean ====
/-
  The precondition says that the absolute value of every entry of both arguments is below `+∞`. On the extended reals
  an entry whose absolute value `max x (−x)` is below `+∞` is neither infinity, hence a real number. The precondition
  is a conjunction of two all-quantified comparisons, each a reduction by `and` over the whole array.
-/
import proofs.«144702_g44719199486315_cont_8to1c4_369_22_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Cert.Pre_finite_inputs Idealize.ShloMosaic

instance : Subsingleton S_.Idx := ⟨fun a b => funext fun d => d.elim0⟩

/-- The pattern of `+∞`. -/
theorem ofBits_inf : Ideal.ofBits .f32 0x7F800000#32 = (⊤ : EReal) := by
  simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | top => simp at hlt
  | coe r => exact ⟨r, rfl⟩

variable [Facts]

/-- Under the precondition every entry of both arguments is a real number. -/
theorem real_of_pre (x : FVec Ideal S16x576x256 .f32) (ck : FVec Ideal S1x1024x256 .f32)
    (h : fn (F := Ideal) x ck = fun _ => 1#1) :
    (∀ i, ∃ r : ℝ, x i = (r : EReal)) ∧ (∀ i, ∃ r : ℝ, ck i = (r : EReal)) := by
  have h0 := congrFun h ValueIdx.ix0
  dsimp only [fn] at h0
  obtain ⟨hx, hc⟩ := IntOp.andi_eq_one.1 h0
  refine ⟨fun i => ?_, fun i => ?_⟩
  · exact real_of_abs_lt (x i) (Host.reduce_andi_all _ _ _ _ _ hx i)
  · exact real_of_abs_lt (ck i) (Host.reduce_andi_all _ _ _ _ _ hc i)

end Cert.Finite

end
-- ==== Proof.lean ====
/-
  The kernel computes the matrix of squared Euclidean distances between 9216 feature rows and 1024 codebook rows as
  `(⟨−2·f_r, c_k⟩ + ‖f_r‖²) + ‖c_k‖²`; the reference computes `(‖f_r‖² + ‖c_k‖²) − 2·⟨f_r, c_k⟩`. On the extended reals,
  where a change of float format is the identity and the patterns of `2.0` and `−2.0` denote `2` and `−2`, the two agree
  at every entry once every input is a real number, which the precondition gives: the factor `−2` then moves across the
  finite sum by distributivity. Both programs reshape their arguments in the same way first and reshape the matrix to
  16 × 576 × 1024 in the same way last, so that last step is never opened.

  The three frames: the two kernel programs run by their generated frame theorems; the reference's run gives its frame
  with the result dropped. The idealization rewrote no operation, so its conjunct is `True`.
-/
import proofs.«144702_g44719199486315_cont_8to1c4_369_22_alg».proof.Defs
import proofs.«144702_g44719199486315_cont_8to1c4_369_22_alg».proof.Proof.Gen.Kernel
import proofs.«144702_g44719199486315_cont_8to1c4_369_22_alg».proof.Proof.Gen.Kernel.Skeleton
import proofs.«144702_g44719199486315_cont_8to1c4_369_22_alg».proof.Proof.Gen.Kernel.Launch
import proofs.«144702_g44719199486315_cont_8to1c4_369_22_alg».proof.Proof.Gen.Kernel.Points
import proofs.«144702_g44719199486315_cont_8to1c4_369_22_alg».proof.Proof.Gen.Kernel.Frame
import proofs.«144702_g44719199486315_cont_8to1c4_369_22_alg».proof.Proof.Gen.KernelIdeal
import proofs.«144702_g44719199486315_cont_8to1c4_369_22_alg».proof.Proof.Gen.KernelIdeal.Skeleton
import proofs.«144702_g44719199486315_cont_8to1c4_369_22_alg».proof.Proof.Gen.KernelIdeal.Launch
import proofs.«144702_g44719199486315_cont_8to1c4_369_22_alg».proof.Proof.Gen.KernelIdeal.Points
import proofs.«144702_g44719199486315_cont_8to1c4_369_22_alg».proof.Proof.Gen.KernelIdeal.Frame
import proofs.«144702_g44719199486315_cont_8to1c4_369_22_alg».proof.Proof.Gen.ReferenceIdeal
import proofs.«144702_g44719199486315_cont_8to1c4_369_22_alg».proof.Proof.Gen.ReferenceIdeal.Run
import proofs.«144702_g44719199486315_cont_8to1c4_369_22_alg».proof.Proof.Gen.ReferenceIdeal.Read
import proofs.«144702_g44719199486315_cont_8to1c4_369_22_alg».proof.Proof.Gen.Pre_finite_inputs
import proofs.«144702_g44719199486315_cont_8to1c4_369_22_alg».proof.Proof.KernelRun
import proofs.«144702_g44719199486315_cont_8to1c4_369_22_alg».proof.Proof.RefValue
import proofs.«144702_g44719199486315_cont_8to1c4_369_22_alg».proof.Proof.Finite
import Idealize.ShloMosaic.Adequacy
import Idealize.ShloMosaic.Init

noncomputable section

namespace Cert.Proof

open Idealize.ShloMosaic Idealize.SL.Sem

/-- For arguments whose entries are all real numbers, the reference's result is the kernel's: the same final reshape of
    the two arrangements of the distance matrix, which are one matrix for real entries. -/
theorem results_agree (x : (⟨Cert.ReferenceIdeal.S16x576x256, .f32⟩ : BufTy).Contents (Elt Ideal))
    (ck : (⟨Cert.ReferenceIdeal.S1x1024x256, .f32⟩ : BufTy).Contents (Elt Ideal))
    (hx : ∀ i, ∃ r : ℝ, x i = (r : EReal)) (hck : ∀ i, ∃ r : ℝ, ck i = (r : EReal)) :
    Cert.ReferenceIdeal.Read.val_main_v16 (F := Ideal) x ck
      = shapeCast Cert.KernelIdeal.S16x576x1024
          (Cert.SqDist.distCrossFirst
            (shapeCast Cert.KernelIdeal.S9216x256 x Cert.KernelIdeal.Facts₀.shapeCasts_S16x576x256_S9216x256)
            (shapeCast Cert.KernelIdeal.S1024x256 ck Cert.KernelIdeal.Facts₀.shapeCasts_S1x1024x256_S1024x256))
          Cert.KernelIdeal.Facts₀.shapeCasts_S9216x1024_S16x576x1024 := by
  have hf : ∀ j, ∃ r : ℝ, shapeCast Cert.KernelIdeal.S9216x256 x Cert.KernelIdeal.Facts₀.shapeCasts_S16x576x256_S9216x256 j = (r : EReal) :=
    fun j => hx _
  have hc : ∀ j, ∃ r : ℝ, shapeCast Cert.KernelIdeal.S1024x256 ck Cert.KernelIdeal.Facts₀.shapeCasts_S1x1024x256_S1024x256 j = (r : EReal) :=
    fun j => hck _
  unfold Cert.ReferenceIdeal.Read.val_main_v16
  rw [Cert.ReferenceIdeal.RefValue.stage15_eq, Cert.SqDist.distCrossFirst_eq _ _ hf hc]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the kernel's result: the kernel by its run read
    back, the reference by its run, the agreement of the arguments, and `results_agree` under the precondition. -/
theorem algebraic : Cert.algebraic_KernelIdeal_ReferenceIdeal := by
  intro m ρ m' ρ' hpre hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hck⟩ := Cert.Finite.real_of_pre _ _ (hpre c)
  rw [(hagree c).1, (hagree c).2, Cert.ReferenceIdeal.Read.val_main_v16_eq]
  exact results_agree _ _ hx hck

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
